-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 92
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .i1⟩
  | 28 => ⟨S_, .f32⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x64, .f32⟩
  | 80 => ⟨S100000, .i32⟩
  | 81 => ⟨S1700000, .i32⟩
  | 82 => ⟨S1700000, .i32⟩
  | 83 => ⟨S_, .f32⟩
  | 84 => ⟨S100000, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S100000, .f32⟩
  | 95 => ⟨S100000, .i1⟩
  | 96 => ⟨S_, .f32⟩
  | 97 => ⟨S_, .f32⟩
  | 98 => ⟨S100000, .f32⟩
  | 99 => ⟨S100000, .f32⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S1700000, .f32⟩
  | 125 => ⟨S1700000x1, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x64, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_call3_v0 : Ref sig .tc := ⟨.hbm, 97, rfl⟩
abbrev main_call3_v1 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_call4_v0 : Ref sig .tc := ⟨.hbm, 102, rfl⟩
abbrev main_call4_v1 : Ref sig .tc := ⟨.hbm, 103, rfl⟩
abbrev main_v68 : Ref sig .tc := ⟨.hbm, 104, rfl⟩
abbrev main_c_17 : Ref sig .tc := ⟨.hbm, 105, rfl⟩
abbrev main_v69 : Ref sig .tc := ⟨.hbm, 106, rfl⟩
abbrev main_v70 : Ref sig .tc := ⟨.hbm, 107, rfl⟩
abbrev main_c_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_19 : Ref sig .tc := ⟨.hbm, 115, rfl⟩
abbrev main_v77 : Ref sig .tc := ⟨.hbm, 116, rfl⟩
abbrev main_v78 : Ref sig .tc := ⟨.hbm, 117, rfl⟩
abbrev main_c_20 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_21 : Ref sig .tc := ⟨.hbm, 126, rfl⟩
abbrev main_v86 : Ref sig .tc := ⟨.hbm, 127, rfl⟩
abbrev main_v87 : Ref sig .tc := ⟨.hbm, 128, rfl⟩
abbrev main_c_22 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_23 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call5_cst : Ref sig .tc := ⟨.hbm, 144, rfl⟩
abbrev main_call5_v0 : Ref sig .tc := ⟨.hbm, 145, rfl⟩
abbrev main_v101 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/- The idealized kernel's run with its result kept.

   @main is eleven segments: five stretches of host operations (the edge normalisation), the first matrix
   product, the first gather-scale-scatter stretch, the first bias-and-rectify region, the second matrix
   product, the second gather-scale-scatter stretch, the second bias-and-rectify region.  Every weakly fair
   execution runs through them in order, so the final memory holds, in every unscoped buffer, the contents
   the eleven-fold composition of the segments leaves there.  Read at the seven argument arrays this is the
   frame; read also at the result array it says what the program returns: the contents the last region's
   write-backs leave in its output array.  The later modules walk that array back to the arguments. -/
import proofs.«142853_j9612136808453_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents
    the last segment leaves in it and the seven argument arrays as launched. -/
theorem run : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Result

end
-- ==== Proof.LayerOps.lean ====
/- The two array operations of a graph-convolution layer that the kernel runs on the device and the reference
   on the host, on the extended reals: a rows-by-columns matrix product, and adding a bias row to every row
   followed by the maximum with zero.  (The edge normalisation, the gather of source rows, the scaling and the
   scatter-add into destination rows are the same host operations in both programs and are never opened.) -/
import Idealize.ShloMosaic.PureOps.Ideal
import Idealize.ShloMosaic.Lib.ValueIdx

noncomputable section

namespace Cert.Layer

open Idealize.ShloMosaic Idealize.ShloMosaic.ValueIdx
open scoped BigOperators

/-- The matrix product: entry (p, q) is the sum over t of x (p, t) · w (t, q). -/
def matProd {M K N : ℕ} (x : (⟨2, ![M, K]⟩ : Shape).Idx → EReal) (w : (⟨2, ![K, N]⟩ : Shape).Idx → EReal) :
    (⟨2, ![M, N]⟩ : Shape).Idx → EReal :=
  fun i => ∑ t : Fin K, x (ix2 (i 0) t) * w (ix2 t (i 1))

/-- The bias added to every row, then the maximum with zero: entry (p, q) is max (a (p, q) + b q) 0. -/
def biasRelu {M N : ℕ} (a : (⟨2, ![M, N]⟩ : Shape).Idx → EReal) (b : (⟨1, ![N]⟩ : Shape).Idx → EReal) :
    (⟨2, ![M, N]⟩ : Shape).Idx → EReal :=
  fun i => max (a i + b (ix1 (i 1))) (Ideal.ofBits .f32 0x00000000#32)

end Cert.Layer

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.Bodies.lean ====
/- What each of the four kernel bodies stores, read at an entry, at the ideal float instance.

   The two product bodies narrow their operands to bf16 and multiply them on the matrix unit into a zero
   accumulator.  On the extended reals the narrowing is the identity and the accumulator adds nothing, so the
   stored block is, at row p and column q, the sum over t of x (p, t) · w (t, q).

   The two bias bodies view the bias vector as one row, spread that row over all rows of the block, add it to
   the block and take the maximum with zero: at (p, q) the stored value is max (a (p, q) + b q) 0. -/
import proofs.«142853_j9612136808453_1_alg».proof.Proof.Gen.KernelIdeal.Skeleton
import proofs.«142853_j9612136808453_1_alg».proof.Proof.LibMatProd
import Idealize.ShloMosaic.Lib.Pipeline.Value
import Idealize.ShloMosaic.Lib.ValueIdx
import Idealize.ShloMosaic.PureOps.Ideal.Laws

noncomputable section

namespace Cert.KernelIdeal.Bodies

open Idealize.ShloMosaic Idealize.ShloMosaic.ValueIdx Cert.KernelIdeal Cert.KernelIdeal.Gen
open scoped BigOperators

/-- The first product's block at (p, q): the row of the input block against the column of the weights. -/
theorem prod128_read (x : Vec Ideal S10000x128 .f32) (w : Vec Ideal S128x128 .f32) (p : Fin 10000) (q : Fin 128) :
    k0_pay1 (F := Ideal) x w (ix2 p q) = ∑ t : Fin 128, x (ix2 p t) * w (ix2 t q) := by
  unfold k0_pay1
  exact Cert.Lib.MatProd.matmul_zero_read (M := 10000) (K := 128) (N := 128) none
    (truncf .bf16 x bitsLt_bf16_f32) (truncf .bf16 w bitsLt_bf16_f32) p q

/-- The second product's block at (p, q). -/
theorem prod64_read (x : Vec Ideal S10000x128 .f32) (w : Vec Ideal S128x64 .f32) (p : Fin 10000) (q : Fin 64) :
    k2_pay1 (F := Ideal) x w (ix2 p q) = ∑ t : Fin 128, x (ix2 p t) * w (ix2 t q) := by
  unfold k2_pay1
  rw [shapeCast_self]
  exact Cert.Lib.MatProd.matmul_zero_read (M := 10000) (K := 128) (N := 64) none
    (truncf .bf16 x bitsLt_bf16_f32) (truncf .bf16 w bitsLt_bf16_f32) p q

/-- The bias row spread over a 128-wide block, read at (p, q): the bias at q. -/
theorem spread128_read (b : Vec Ideal S128 .f32) (p : Fin 10000) (q : Fin 128) :
    broadcastTo S10000x128 (shapeCast S1x128 b shapeCasts_S128_S1x128) broadcasts_S1x128_S10000x128 (ix2 p q) = b (ix1 q) := by
  rw [broadcastTo_apply _ broadcasts_S1x128_S10000x128 (ix2 p q) (ix2 (0 : Fin 1) q) (fun a => by
    match a with
    | ⟨0, _⟩ => rfl
    | ⟨1, _⟩ => rfl)]
  exact shapeCast_apply b shapeCasts_S128_S1x128 (ix2 (0 : Fin 1) q) (ix1 q) (by
    rw [Shape.rowMajor_val_one, Shape.rowMajor_val_two]; simp)

/-- The bias row spread over a 64-wide block, read at (p, q): the bias at q. -/
theorem spread64_read (b : Vec Ideal S64 .f32) (p : Fin 10000) (q : Fin 64) :
    broadcastTo S10000x64 (shapeCast S1x64 b shapeCasts_S64_S1x64) broadcasts_S1x64_S10000x64 (ix2 p q) = b (ix1 q) := by
  rw [broadcastTo_apply _ broadcasts_S1x64_S10000x64 (ix2 p q) (ix2 (0 : Fin 1) q) (fun a => by
    match a with
    | ⟨0, _⟩ => rfl
    | ⟨1, _⟩ => rfl)]
  exact shapeCast_apply b shapeCasts_S64_S1x64 (ix2 (0 : Fin 1) q) (ix1 q) (by
    rw [Shape.rowMajor_val_one, Shape.rowMajor_val_two]; simp)

/-- The first bias body's block at (p, q). -/
theorem bias128_read (a : Vec Ideal S10000x128 .f32) (b : Vec Ideal S128 .f32) (p : Fin 10000) (q : Fin 128) :
    k1_pay1 (F := Ideal) a b (ix2 p q) = max (a (ix2 p q) + b (ix1 q)) (Ideal.ofBits .f32 0x00000000#32) := by
  unfold k1_pay1
  rw [shapeCast_self]
  show max (a (ix2 p q) + broadcastTo S10000x128 (shapeCast S1x128 b shapeCasts_S128_S1x128) broadcasts_S1x128_S10000x128 (ix2 p q)) _ = _
  rw [spread128_read]
  rfl

/-- The second bias body's block at (p, q). -/
theorem bias64_read (a : Vec Ideal S10000x64 .f32) (b : Vec Ideal S64 .f32) (p : Fin 10000) (q : Fin 64) :
    k3_pay1 (F := Ideal) a b (ix2 p q) = max (a (ix2 p q) + b (ix1 q)) (Ideal.ofBits .f32 0x00000000#32) := by
  unfold k3_pay1
  rw [shapeCast_self]
  show max (a (ix2 p q) + broadcastTo S10000x64 (shapeCast S1x64 b shapeCasts_S64_S1x64) broadcasts_S1x64_S10000x64 (ix2 p q)) _ = _
  rw [spread64_read]
  rfl

end Cert.KernelIdeal.Bodies

end
-- ==== Proof.Regions.lean ====
/- The four device regions, each as one array operation, at the ideal float instance.

   Every region runs over ten grid points; point t stages rows 10000·t … 10000·t + 9999 of its first input
   array, the whole of its second (the weights, or the bias), and writes back the same rows of its output
   array.  A product body stores, at row p and column q of its block, the sum over s of
   (input row 10000·t + p, column s) · (weights row s, column q): the matrix product read at row 10000·t + p.
   A bias body stores max (input (10000·t + p, q) + bias q) 0.  The ten blocks tile the 100000 rows, so after
   the region the output array is the whole matrix product, or the whole biased and rectified array, of the
   region's input arrays as it found them.  Nothing here depends on what those entry contents are. -/
import proofs.«142853_j9612136808453_1_alg».proof.Proof.Gen.KernelIdeal.Frame
import proofs.«142853_j9612136808453_1_alg».proof.Proof.Bodies
import proofs.«142853_j9612136808453_1_alg».proof.Proof.LayerOps
import Idealize.ShloMosaic.Lib.Pipeline.Value

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen Cert.Layer
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: the features times the first weights -/

/-- The index maps over the grid: point t takes row block t of the left operand and of the output, and the whole
    right operand. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two input arrays as the region finds them. -/
theorem flushed0 (c : Dev nD) (t : Fin cfg0.N) :
    (dat0 V c).flushed 2 t = ((cfg0.win 2).blk t).view.read (Elt Ideal)
      (matProd (M := 100000) (K := 128) (N := 128) (V c main_arg0) (V c main_arg3)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x128) hz2]
  obtain ⟨e00, e01, e10, e11, e20, e21⟩ := idx0 t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = matProd (V c main_arg0) (V c main_arg3) (((cfg0.win 2).blk t).view.emb (ix2 p q))
  refine (Cert.KernelIdeal.Bodies.prod128_read (iblk0 V c 0 t) (iblk0 V c 1 t) p q).trans ?_
  unfold matProd
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : iblk0 V c 1 t (ix2 k q) = V c main_arg3 (ix2 k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v35).slice (win0_2.rect t)).set ↔ _
  rw [View.set_slice_whole, Rect.mem_set_unit]
  exact Iff.rfl

/-- The ten row blocks tile the output array (row r lies in block r / 10000), so after the region it holds the
    product of the two input arrays. -/
theorem array0 (c : Dev nD) :
    (dat0 V c).arrAt 2 cfg0.N = matProd (M := 100000) (K := 128) (N := 128) (V c main_arg0) (V c main_arg3) :=
  (dat0 V c).arrAt_eq_of_cover 2 _ (fun t _ => flushed0 V c t) fun i => by
    have hi0 : (i 0).val < 100000 := (i 0).isLt
    have hi1 : (i 1).val < 128 := (i 1).isLt
    have hN : cfg0.N = 10 := N_0
    let t : Fin cfg0.N := ⟨(i 0).val / 10000, by rw [hN]; omega⟩
    obtain ⟨e00, e01, e10, e11, e20, e21⟩ := idx0 t
    have ht : t.val = (i 0).val / 10000 := rfl
    refine ⟨t, flush0_2 t, (mem_blk0 t i).mpr fun a => ?_⟩
    match a with
    | ⟨0, _⟩ => show win0_2.index t (0 : Fin 2) * 10000 ≤ (i 0).val ∧ (i 0).val < win0_2.index t (0 : Fin 2) * 10000 + 10000; omega
    | ⟨1, _⟩ => show win0_2.index t (1 : Fin 2) * 128 ≤ (i 1).val ∧ (i 1).val < win0_2.index t (1 : Fin 2) * 128 + 128; omega

/-! ## Region 1: the first aggregate, biased and rectified -/

/-- The index maps over the grid: point t takes row block t of the aggregate and of the output, and the whole bias. -/
theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the aggregate with the bias added and rectified. -/
theorem flushed1 (c : Dev nD) (t : Fin cfg1.N) :
    (dat1 V c).flushed 2 t = ((cfg1.win 2).blk t).view.read (Elt Ideal)
      (biasRelu (M := 100000) (N := 128) (V c main_v48) (V c main_arg4)) := by
  show (cfg1.win 2).cut (grid1.coords t) ((dat1 V c).after 2 t) = _
  rw [after1_2]
  unfold out1_2
  rw [View.canon_unit_zero hz2]
  simp only [View.ld_unit_zero (S := S10000x128) hz2, View.ld_unit_zero (S := S128) hz1]
  obtain ⟨e00, e01, e10, e20, e21⟩ := idx1 t
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
    = biasRelu (V c main_v48) (V c main_arg4) (((cfg1.win 2).blk t).view.emb (ix2 p q))
  refine (Cert.KernelIdeal.Bodies.bias128_read (iblk1 V c 0 t) (iblk1 V c 1 t) p q).trans ?_
  unfold biasRelu
  have h0 : iblk1 V c 0 t (ix2 p q) = V c main_v48 (((cfg1.win 2).blk t).view.emb (ix2 p q)) := by
    show V c main_v48 (((cfg1.win 0).blk t).view.emb (ix2 p q)) = _
    refine congrArg (V c main_v48) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : iblk1 V c 1 t (ix1 q) = V c main_arg4 (ix1 ((((cfg1.win 2).blk t).view.emb (ix2 p q)) 1)) := by
    show V c main_arg4 (((cfg1.win 1).blk t).view.emb (ix1 q)) = _
    refine congrArg (V c main_arg4) (funext fun a => Fin.ext ?_)
    match a with
    | ⟨0, _⟩ => show win1_1.index t (0 : Fin 1) * 128 + 1 * q.val = win1_2.index t (1 : Fin 2) * 128 + 1 * q.val; omega
  rw [h0, h1]

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v49).slice (win1_2.rect t)).set ↔ _
  rw [View.set_slice_whole, Rect.mem_set_unit]
  exact Iff.rfl

/-- The ten row blocks tile the output array, so after the region it holds the aggregate with the bias added and
    rectified. -/
theorem array1 (c : Dev nD) :
    (dat1 V c).arrAt 2 cfg1.N = biasRelu (M := 100000) (N := 128) (V c main_v48) (V c main_arg4) :=
  (dat1 V c).arrAt_eq_of_cover 2 _ (fun t _ => flushed1 V c t) fun i => by
    have hi0 : (i 0).val < 100000 := (i 0).isLt
    have hi1 : (i 1).val < 128 := (i 1).isLt
    have hN : cfg1.N = 10 := N_1
    let t : Fin cfg1.N := ⟨(i 0).val / 10000, by rw [hN]; omega⟩
    obtain ⟨e00, e01, e10, e20, e21⟩ := idx1 t
    have ht : t.val = (i 0).val / 10000 := rfl
    refine ⟨t, flush1_2 t, (mem_blk1 t i).mpr fun a => ?_⟩
    match a with
    | ⟨0, _⟩ => show win1_2.index t (0 : Fin 2) * 10000 ≤ (i 0).val ∧ (i 0).val < win1_2.index t (0 : Fin 2) * 10000 + 10000; omega
    | ⟨1, _⟩ => show win1_2.index t (1 : Fin 2) * 128 ≤ (i 1).val ∧ (i 1).val < win1_2.index t (1 : Fin 2) * 128 + 128; omega

/-! ## Region 2: the first layer's output times the second weights -/

/-- The index maps over the grid: point t takes row block t of the left operand and of the output, and the whole
    right operand. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two input arrays as the region finds them. -/
theorem flushed2 (c : Dev nD) (t : Fin cfg2.N) :
    (dat2 V c).flushed 2 t = ((cfg2.win 2).blk t).view.read (Elt Ideal)
      (matProd (M := 100000) (K := 128) (N := 64) (V c main_v49) (V c main_arg5)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x64) hz2]
  obtain ⟨e00, e01, e10, e11, e20, e21⟩ := idx2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = matProd (V c main_v49) (V c main_arg5) (((cfg2.win 2).blk t).view.emb (ix2 p q))
  refine (Cert.KernelIdeal.Bodies.prod64_read (iblk2 V c 0 t) (iblk2 V c 1 t) p q).trans ?_
  unfold matProd
  refine Finset.sum_congr rfl fun k _ => ?_
  have h0 : iblk2 V c 0 t (ix2 p k) = V c main_v49 (ix2 ((((cfg2.win 2).blk t).view.emb (ix2 p q)) 0) k) := by
    show V c main_v49 (((cfg2.win 0).blk t).view.emb (ix2 p k)) = _
    refine congrArg (V c main_v49) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have h1 : iblk2 V c 1 t (ix2 k q) = V c main_arg5 (ix2 k ((((cfg2.win 2).blk t).view.emb (ix2 p q)) 1)) := by
    show V c main_arg5 (((cfg2.win 1).blk t).view.emb (ix2 k q)) = _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [h0, h1]

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v50).slice (win2_2.rect t)).set ↔ _
  rw [View.set_slice_whole, Rect.mem_set_unit]
  exact Iff.rfl

/-- The ten row blocks tile the output array (row r lies in block r / 10000), so after the region it holds the
    product of the two input arrays. -/
theorem array2 (c : Dev nD) :
    (dat2 V c).arrAt 2 cfg2.N = matProd (M := 100000) (K := 128) (N := 64) (V c main_v49) (V c main_arg5) :=
  (dat2 V c).arrAt_eq_of_cover 2 _ (fun t _ => flushed2 V c t) fun i => by
    have hi0 : (i 0).val < 100000 := (i 0).isLt
    have hi1 : (i 1).val < 64 := (i 1).isLt
    have hN : cfg2.N = 10 := N_2
    let t : Fin cfg2.N := ⟨(i 0).val / 10000, by rw [hN]; omega⟩
    obtain ⟨e00, e01, e10, e11, e20, e21⟩ := idx2 t
    have ht : t.val = (i 0).val / 10000 := rfl
    refine ⟨t, flush2_2 t, (mem_blk2 t i).mpr fun a => ?_⟩
    match a with
    | ⟨0, _⟩ => show win2_2.index t (0 : Fin 2) * 10000 ≤ (i 0).val ∧ (i 0).val < win2_2.index t (0 : Fin 2) * 10000 + 10000; omega
    | ⟨1, _⟩ => show win2_2.index t (1 : Fin 2) * 64 ≤ (i 1).val ∧ (i 1).val < win2_2.index t (1 : Fin 2) * 64 + 64; omega

/-! ## Region 3: the second aggregate, biased and rectified -/

/-- The index maps over the grid: point t takes row block t of the aggregate and of the output, and the whole bias. -/
theorem idx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the aggregate with the bias added and rectified. -/
theorem flushed3 (c : Dev nD) (t : Fin cfg3.N) :
    (dat3 V c).flushed 2 t = ((cfg3.win 2).blk t).view.read (Elt Ideal)
      (biasRelu (M := 100000) (N := 64) (V c main_v63) (V c main_arg6)) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64) hz1]
  obtain ⟨e00, e01, e10, e20, e21⟩ := idx3 t
  funext j
  obtain ⟨p, q, rfl⟩ : ∃ (p : Fin 10000) (q : Fin 64), j = ix2 p q := ⟨j 0, j 1, eq_ix2 j⟩
  show k3_pay1 (iblk3 V c 0 t) (iblk3 V c 1 t) (ix2 p q)
    = biasRelu (V c main_v63) (V c main_arg6) (((cfg3.win 2).blk t).view.emb (ix2 p q))
  refine (Cert.KernelIdeal.Bodies.bias64_read (iblk3 V c 0 t) (iblk3 V c 1 t) p q).trans ?_
  unfold biasRelu
  have h0 : iblk3 V c 0 t (ix2 p q) = V c main_v63 (((cfg3.win 2).blk t).view.emb (ix2 p q)) := by
    show V c main_v63 (((cfg3.win 0).blk t).view.emb (ix2 p q)) = _
    refine congrArg (V c main_v63) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : iblk3 V c 1 t (ix1 q) = V c main_arg6 (ix1 ((((cfg3.win 2).blk t).view.emb (ix2 p q)) 1)) := by
    show V c main_arg6 (((cfg3.win 1).blk t).view.emb (ix1 q)) = _
    refine congrArg (V c main_arg6) (funext fun a => Fin.ext ?_)
    match a with
    | ⟨0, _⟩ => show win3_1.index t (0 : Fin 1) * 64 + 1 * q.val = win3_2.index t (1 : Fin 2) * 64 + 1 * q.val; omega
  rw [h0, h1]

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v64).slice (win3_2.rect t)).set ↔ _
  rw [View.set_slice_whole, Rect.mem_set_unit]
  exact Iff.rfl

/-- The ten row blocks tile the output array, so after the region it holds the aggregate with the bias added and
    rectified. -/
theorem array3 (c : Dev nD) :
    (dat3 V c).arrAt 2 cfg3.N = biasRelu (M := 100000) (N := 64) (V c main_v63) (V c main_arg6) :=
  (dat3 V c).arrAt_eq_of_cover 2 _ (fun t _ => flushed3 V c t) fun i => by
    have hi0 : (i 0).val < 100000 := (i 0).isLt
    have hi1 : (i 1).val < 64 := (i 1).isLt
    have hN : cfg3.N = 10 := N_3
    let t : Fin cfg3.N := ⟨(i 0).val / 10000, by rw [hN]; omega⟩
    obtain ⟨e00, e01, e10, e20, e21⟩ := idx3 t
    have ht : t.val = (i 0).val / 10000 := rfl
    refine ⟨t, flush3_2 t, (mem_blk3 t i).mpr fun a => ?_⟩
    match a with
    | ⟨0, _⟩ => show win3_2.index t (0 : Fin 2) * 10000 ≤ (i 0).val ∧ (i 0).val < win3_2.index t (0 : Fin 2) * 10000 + 10000; omega
    | ⟨1, _⟩ => show win3_2.index t (1 : Fin 2) * 64 ≤ (i 1).val ∧ (i 1).val < win3_2.index t (1 : Fin 2) * 64 + 64; omega

end Cert.KernelIdeal.Regions

end
-- ==== Proof.RefStages.lean ====
/- The reference's four dense stages are the layer's two operations.

   Its two host matrix products are, entry by entry, the sum over the contracted axis; its bias is viewed as one
   row, spread over all rows, added, and the result compared with a zero spread over the array: the bias read at
   the column, added, and the maximum with zero. -/
import proofs.«142853_j9612136808453_1_alg».proof.Proof.Gen.ReferenceIdeal.Read
import proofs.«142853_j9612136808453_1_alg».proof.Proof.LayerOps

noncomputable section

namespace Cert.ReferenceIdeal.Stages

open Idealize.ShloMosaic Idealize.ShloMosaic.ValueIdx Cert.ReferenceIdeal Cert.ReferenceIdeal.Read Cert.Layer
open scoped BigOperators

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- The first layer's linear transform is the product of the features with the first weights. -/
theorem product1 : val_main_v4 (F := Ideal) x0 x3 = matProd (M := 100000) (K := 128) (N := 128) x0 x3 := by
  funext i
  rw [val_main_v4_apply]
  refine Finset.sum_congr rfl fun t _ => ?_
  have el : lidx_main_v4 i t = ix2 (i 0) t := funext fun a => by match a with | ⟨0, _⟩ => rfl | ⟨1, _⟩ => rfl
  have er : ridx_main_v4 i t = ix2 t (i 1) := funext fun a => by match a with | ⟨0, _⟩ => rfl | ⟨1, _⟩ => rfl
  rw [el, er]
  rfl

/-- The first layer's output is its aggregate with the first bias added and rectified. -/
theorem rectified1 : val_main_v52 (F := Ideal) x0 x1 x2 x3 x4
    = biasRelu (M := 100000) (N := 128) (val_main_v48 (F := Ideal) x0 x1 x2 x3) x4 := by
  funext i
  rw [val_main_v52_apply, val_main_v51_apply, val_main_v50_apply, val_main_v49_apply, val_main_call2_v0_apply,
    val_main_call2_cst_apply]
  have e : idx_main_v49 (idx_main_v50 i) = ix1 (i 1) := funext fun a => by match a with | ⟨0, _⟩ => rfl
  rw [e]
  rfl

/-- The second layer's linear transform is the product of the first layer's output with the second weights. -/
theorem product2 : val_main_v53 (F := Ideal) x0 x1 x2 x3 x4 x5
    = matProd (M := 100000) (K := 128) (N := 64) (val_main_v52 (F := Ideal) x0 x1 x2 x3 x4) x5 := by
  funext i
  rw [val_main_v53_apply]
  refine Finset.sum_congr rfl fun t _ => ?_
  have el : lidx_main_v53 i t = ix2 (i 0) t := funext fun a => by match a with | ⟨0, _⟩ => rfl | ⟨1, _⟩ => rfl
  have er : ridx_main_v53 i t = ix2 t (i 1) := funext fun a => by match a with | ⟨0, _⟩ => rfl | ⟨1, _⟩ => rfl
  rw [el, er]
  rfl

/-- The result is the second aggregate with the second bias added and rectified. -/
theorem rectified2 : val_main_v101 (F := Ideal) x0 x1 x2 x3 x4 x5 x6
    = biasRelu (M := 100000) (N := 64) (val_main_v97 (F := Ideal) x0 x1 x2 x3 x4 x5) x6 := by
  funext i
  rw [val_main_v101_apply, val_main_v100_apply, val_main_v99_apply, val_main_v98_apply, val_main_call5_v0_apply,
    val_main_call5_cst_apply]
  have e : idx_main_v98 (idx_main_v99 i) = ix1 (i 1) := funext fun a => by match a with | ⟨0, _⟩ => rfl
  rw [e]
  rfl

end Cert.ReferenceIdeal.Stages

end
-- ==== Proof.EdgeNorm.lean ====
/- What the first region finds: the host operations before it, read at the buffers later segments use.

   Before the first product the kernel's @main computes, on the host, exactly what the reference computes: the
   source and destination index arrays with the self loops appended, the edge weights with the self loops'
   ones appended, the weighted in-degree by a scatter-add, its reciprocal square root where the degree is
   positive and zero elsewhere, and the per-edge coefficient (that value at the source) · weight · (that value
   at the destination).  The two programs spell these with the same operations on the same literals, so each
   buffer holds the reference's stage of the arguments; no argument array is written. -/
import proofs.«142853_j9612136808453_1_alg».proof.Proof.Gen.KernelIdeal.Frame
import proofs.«142853_j9612136808453_1_alg».proof.Proof.Gen.ReferenceIdeal.Read

set_option maxRecDepth 16384

noncomputable section

namespace Cert.KernelIdeal.EdgeNorm

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- Unfolds the five stretches before the first region and reads each operation's result where it was written. -/
local macro "read_entry" : tactic =>
  `(tactic| (dsimp only [W5, W4, W3, W2, W1, W0]
             simp only [hostOps0, hostOps0_1, hostOps0_2, hostOps0_3, hostOps0_4]
             after_results_simp))

set_option maxHeartbeats 2000000 in
/-- The source indices, self loops appended. -/
theorem sources (c : Dev nD) : W5 m ρ c (Proc.devRef .tc main_v5)
    = Cert.ReferenceIdeal.Read.val_main_v6 (F := F) (m ((c.tc : Thread nD τ).loc main_arg1)) := by
  read_entry
  rfl

set_option maxHeartbeats 2000000 in
/-- The destination indices, self loops appended. -/
theorem targets (c : Dev nD) : W5 m ρ c (Proc.devRef .tc main_v6)
    = Cert.ReferenceIdeal.Read.val_main_v7 (F := F) (m ((c.tc : Thread nD τ).loc main_arg1)) := by
  read_entry
  rfl

set_option maxHeartbeats 2000000 in
/-- The per-edge normalisation coefficients. -/
theorem coefficients (c : Dev nD) : W5 m ρ c (Proc.devRef .tc main_v34)
    = Cert.ReferenceIdeal.Read.val_main_v35 (F := F) (m ((c.tc : Thread nD τ).loc main_arg1))
        (m ((c.tc : Thread nD τ).loc main_arg2)) := by
  read_entry
  rfl

set_option maxHeartbeats 2000000 in
/-- The features are as launched. -/
theorem features (c : Dev nD) : W5 m ρ c (Proc.devRef .tc main_arg0) = m ((c.tc : Thread nD τ).loc main_arg0) := by
  read_entry

set_option maxHeartbeats 2000000 in
/-- The first weights are as launched. -/
theorem weights1 (c : Dev nD) : W5 m ρ c (Proc.devRef .tc main_arg3) = m ((c.tc : Thread nD τ).loc main_arg3) := by
  read_entry

set_option maxHeartbeats 2000000 in
/-- The first bias is as launched. -/
theorem bias1 (c : Dev nD) : W5 m ρ c (Proc.devRef .tc main_arg4) = m ((c.tc : Thread nD τ).loc main_arg4) := by
  read_entry

set_option maxHeartbeats 2000000 in
/-- The second weights are as launched. -/
theorem weights2 (c : Dev nD) : W5 m ρ c (Proc.devRef .tc main_arg5) = m ((c.tc : Thread nD τ).loc main_arg5) := by
  read_entry

set_option maxHeartbeats 2000000 in
/-- The second bias is as launched. -/
theorem bias2 (c : Dev nD) : W5 m ρ c (Proc.devRef .tc main_arg6) = m ((c.tc : Thread nD τ).loc main_arg6) := by
  read_entry

end Cert.KernelIdeal.EdgeNorm

end
-- ==== Proof.Chain.lean ====
/- The kernel's result array, walked back to the arguments.

   After the first region the product buffer holds features · W1.  The host stretch that follows gathers its rows
   at the source indices, scales each by the edge's coefficient and scatter-adds them at the destination indices:
   the reference's first aggregate, the same operations on the same values.  The second region adds the first
   bias and rectifies; the third multiplies by W2; the second stretch aggregates again with the SAME coefficients
   (the reference recomputes them from the same arguments by the same operations, so they are the same array);
   the last region adds the second bias and rectifies.  A buffer that a segment does not write is carried through
   it unchanged, which is how the index arrays, the coefficients, the weights and the biases reach the segments
   that read them. -/
import proofs.«142853_j9612136808453_1_alg».proof.Proof.Gen.KernelIdeal.Frame
import proofs.«142853_j9612136808453_1_alg».proof.Proof.Gen.ReferenceIdeal.Read
import proofs.«142853_j9612136808453_1_alg».proof.Proof.LayerOps
import proofs.«142853_j9612136808453_1_alg».proof.Proof.Regions
import proofs.«142853_j9612136808453_1_alg».proof.Proof.RefStages
import proofs.«142853_j9612136808453_1_alg».proof.Proof.EdgeNorm

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.Layer

variable (m : (ℓ : Loc nD τ sig) → Buf (Elt Ideal) ℓ) (ρ : Dev nD → PrngReg)

/-- The seven argument arrays as launched. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)

/-- Unfolds one gather-scale-scatter stretch and reads each operation's result where it was written. -/
local macro "read_stretch" : tactic =>
  `(tactic| (dsimp only [W7, W10]
             simp only [hostOps1, hostOps3]
             after_results_simp))

/-! ## After the first region -/

/-- The first region leaves features · W1 in its output array. -/
theorem product1 (c : Dev nD) : W6 m ρ c (Proc.devRef .tc main_v35) = Cert.ReferenceIdeal.Read.val_main_v4 (F := Ideal) (A0 m c) (A3 m c) := by
  refine (W6_arr m ρ c 2).trans ((Cert.KernelIdeal.Regions.array0 (V5 m ρ) c).trans ?_)
  show matProd (W5 m ρ c (Proc.devRef .tc main_arg0)) (W5 m ρ c (Proc.devRef .tc main_arg3)) = _
  rw [Cert.KernelIdeal.EdgeNorm.features, Cert.KernelIdeal.EdgeNorm.weights1]
  exact (Cert.ReferenceIdeal.Stages.product1 _ _).symm

/-- The source indices reach the first stretch. -/
theorem sources6 (c : Dev nD) : W6 m ρ c (Proc.devRef .tc main_v5) = Cert.ReferenceIdeal.Read.val_main_v6 (F := Ideal) (A1 m c) :=
  calc W6 m ρ c (Proc.devRef .tc main_v5)
    _ = W5 m ρ c (Proc.devRef .tc main_v5) := W6_of_ne m ρ c main_v5 (by decide)
    _ = Cert.ReferenceIdeal.Read.val_main_v6 (F := Ideal) (A1 m c) := Cert.KernelIdeal.EdgeNorm.sources m ρ c

/-- The destination indices reach the first stretch. -/
theorem targets6 (c : Dev nD) : W6 m ρ c (Proc.devRef .tc main_v6) = Cert.ReferenceIdeal.Read.val_main_v7 (F := Ideal) (A1 m c) :=
  calc W6 m ρ c (Proc.devRef .tc main_v6)
    _ = W5 m ρ c (Proc.devRef .tc main_v6) := W6_of_ne m ρ c main_v6 (by decide)
    _ = Cert.ReferenceIdeal.Read.val_main_v7 (F := Ideal) (A1 m c) := Cert.KernelIdeal.EdgeNorm.targets m ρ c

/-- The coefficients reach the first stretch. -/
theorem coefficients6 (c : Dev nD) : W6 m ρ c (Proc.devRef .tc main_v34) = Cert.ReferenceIdeal.Read.val_main_v35 (F := Ideal) (A1 m c) (A2 m c) :=
  calc W6 m ρ c (Proc.devRef .tc main_v34)
    _ = W5 m ρ c (Proc.devRef .tc main_v34) := W6_of_ne m ρ c main_v34 (by decide)
    _ = Cert.ReferenceIdeal.Read.val_main_v35 (F := Ideal) (A1 m c) (A2 m c) := Cert.KernelIdeal.EdgeNorm.coefficients m ρ c

/-! ## The first aggregate -/

set_option maxHeartbeats 4000000 in
/-- The first stretch leaves the reference's first aggregate. -/
theorem aggregate1 (c : Dev nD) : W7 m ρ c (Proc.devRef .tc main_v48)
    = Cert.ReferenceIdeal.Read.val_main_v48 (F := Ideal) (A0 m c) (A1 m c) (A2 m c) (A3 m c) := by
  read_stretch
  rw [product1 m ρ c, sources6 m ρ c, targets6 m ρ c, coefficients6 m ρ c]
  rfl

/-- The first bias reaches the second region. -/
theorem bias1_7 (c : Dev nD) : W7 m ρ c (Proc.devRef .tc main_arg4) = A4 m c :=
  calc W7 m ρ c (Proc.devRef .tc main_arg4)
    _ = W6 m ρ c (Proc.devRef .tc main_arg4) := by read_stretch
    _ = W5 m ρ c (Proc.devRef .tc main_arg4) := W6_of_ne m ρ c main_arg4 (by decide)
    _ = A4 m c := Cert.KernelIdeal.EdgeNorm.bias1 m ρ c

/-! ## The first layer's output -/

/-- The second region leaves the first aggregate with the first bias added and rectified. -/
theorem hidden (c : Dev nD) : W8 m ρ c (Proc.devRef .tc main_v49)
    = Cert.ReferenceIdeal.Read.val_main_v52 (F := Ideal) (A0 m c) (A1 m c) (A2 m c) (A3 m c) (A4 m c) := by
  refine (W8_arr m ρ c 2).trans ((Cert.KernelIdeal.Regions.array1 (V7 m ρ) c).trans ?_)
  show biasRelu (W7 m ρ c (Proc.devRef .tc main_v48)) (W7 m ρ c (Proc.devRef .tc main_arg4)) = _
  rw [aggregate1 m ρ c, bias1_7 m ρ c]
  exact (Cert.ReferenceIdeal.Stages.rectified1 _ _ _ _ _).symm

/-- The second weights reach the third region. -/
theorem weights2_8 (c : Dev nD) : W8 m ρ c (Proc.devRef .tc main_arg5) = A5 m c :=
  calc W8 m ρ c (Proc.devRef .tc main_arg5)
    _ = W7 m ρ c (Proc.devRef .tc main_arg5) := W8_of_ne m ρ c main_arg5 (by decide)
    _ = W6 m ρ c (Proc.devRef .tc main_arg5) := by read_stretch
    _ = W5 m ρ c (Proc.devRef .tc main_arg5) := W6_of_ne m ρ c main_arg5 (by decide)
    _ = A5 m c := Cert.KernelIdeal.EdgeNorm.weights2 m ρ c

/-! ## The second product -/

/-- The third region leaves (the first layer's output) · W2. -/
theorem product2 (c : Dev nD) : W9 m ρ c (Proc.devRef .tc main_v50)
    = Cert.ReferenceIdeal.Read.val_main_v53 (F := Ideal) (A0 m c) (A1 m c) (A2 m c) (A3 m c) (A4 m c) (A5 m c) := by
  refine (W9_arr m ρ c 2).trans ((Cert.KernelIdeal.Regions.array2 (V8 m ρ) c).trans ?_)
  show matProd (W8 m ρ c (Proc.devRef .tc main_v49)) (W8 m ρ c (Proc.devRef .tc main_arg5)) = _
  rw [hidden m ρ c, weights2_8 m ρ c]
  exact (Cert.ReferenceIdeal.Stages.product2 _ _ _ _ _ _).symm

/-- The source indices reach the second stretch. -/
theorem sources9 (c : Dev nD) : W9 m ρ c (Proc.devRef .tc main_v5) = Cert.ReferenceIdeal.Read.val_main_v6 (F := Ideal) (A1 m c) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by read_stretch
    _ = W5 m ρ c (Proc.devRef .tc main_v5) := W6_of_ne m ρ c main_v5 (by decide)
    _ = Cert.ReferenceIdeal.Read.val_main_v6 (F := Ideal) (A1 m c) := Cert.KernelIdeal.EdgeNorm.sources m ρ c

/-- The destination indices reach the second stretch. -/
theorem targets9 (c : Dev nD) : W9 m ρ c (Proc.devRef .tc main_v6) = Cert.ReferenceIdeal.Read.val_main_v7 (F := Ideal) (A1 m c) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by read_stretch
    _ = W5 m ρ c (Proc.devRef .tc main_v6) := W6_of_ne m ρ c main_v6 (by decide)
    _ = Cert.ReferenceIdeal.Read.val_main_v7 (F := Ideal) (A1 m c) := Cert.KernelIdeal.EdgeNorm.targets m ρ c

/-- The coefficients reach the second stretch. -/
theorem coefficients9 (c : Dev nD) : W9 m ρ c (Proc.devRef .tc main_v34) = Cert.ReferenceIdeal.Read.val_main_v35 (F := Ideal) (A1 m c) (A2 m c) :=
  calc W9 m ρ c (Proc.devRef .tc main_v34)
    _ = W8 m ρ c (Proc.devRef .tc main_v34) := W9_of_ne m ρ c main_v34 (by decide)
    _ = W7 m ρ c (Proc.devRef .tc main_v34) := W8_of_ne m ρ c main_v34 (by decide)
    _ = W6 m ρ c (Proc.devRef .tc main_v34) := by read_stretch
    _ = W5 m ρ c (Proc.devRef .tc main_v34) := W6_of_ne m ρ c main_v34 (by decide)
    _ = Cert.ReferenceIdeal.Read.val_main_v35 (F := Ideal) (A1 m c) (A2 m c) := Cert.KernelIdeal.EdgeNorm.coefficients m ρ c

/-! ## The second aggregate -/

set_option maxHeartbeats 4000000 in
/-- The second stretch leaves the reference's second aggregate: the reference rebuilds the index arrays and the
    coefficients for its second layer by the same operations from the same arguments, so they are the arrays the
    kernel computed once. -/
theorem aggregate2 (c : Dev nD) : W10 m ρ c (Proc.devRef .tc main_v63)
    = Cert.ReferenceIdeal.Read.val_main_v97 (F := Ideal) (A0 m c) (A1 m c) (A2 m c) (A3 m c) (A4 m c) (A5 m c) := by
  read_stretch
  rw [product2 m ρ c, sources9 m ρ c, targets9 m ρ c, coefficients9 m ρ c]
  rfl

/-- The second bias reaches the last region. -/
theorem bias2_10 (c : Dev nD) : W10 m ρ c (Proc.devRef .tc main_arg6) = A6 m c :=
  calc W10 m ρ c (Proc.devRef .tc main_arg6)
    _ = W9 m ρ c (Proc.devRef .tc main_arg6) := by read_stretch
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := by read_stretch
    _ = W5 m ρ c (Proc.devRef .tc main_arg6) := W6_of_ne m ρ c main_arg6 (by decide)
    _ = A6 m c := Cert.KernelIdeal.EdgeNorm.bias2 m ρ c

/-! ## The result -/

/-- The last region leaves the second aggregate with the second bias added and rectified: the reference's result. -/
theorem result (c : Dev nD) : W11 m ρ c (Proc.devRef .tc main_v64)
    = Cert.ReferenceIdeal.Read.val_main_v101 (F := Ideal) (A0 m c) (A1 m c) (A2 m c) (A3 m c) (A4 m c) (A5 m c) (A6 m c) := by
  refine (W11_arr m ρ c 2).trans ((Cert.KernelIdeal.Regions.array3 (V10 m ρ) c).trans ?_)
  show biasRelu (W10 m ρ c (Proc.devRef .tc main_v63)) (W10 m ρ c (Proc.devRef .tc main_arg6)) = _
  rw [aggregate2 m ρ c, bias2_10 m ρ c]
  exact (Cert.ReferenceIdeal.Stages.rectified2 _ _ _ _ _ _ _).symm

end Cert.KernelIdeal.Chain

end
-- ==== Proof.lean ====
/- A two-layer graph convolution: the device kernel against its host reference, on the extended reals.

   Both programs compute, for node features X, edge list (r, c) with weights w (self loops of weight one appended),
   the degree d = scatter-add of w at c, the coefficients n_e = s(r_e) · w_e · s(c_e) with s = d^(-1/2) where d > 0
   and 0 elsewhere, and then twice

       H ↦ max ( scatter-add at c of ( n_e · (H · W)[r_e] ) + b , 0 ).

   The kernel runs each H · W as a pipelined matrix product over ten row blocks (operands narrowed to bf16, which
   on the extended reals is the identity) and each "+ b, max 0" as a pipelined pointwise pass over ten row blocks;
   the reference uses one host product and host additions and maxima.  The gathers, the scaling and the
   scatter-adds are host operations in both, spelt identically, and the kernel computes the coefficients once where
   the reference recomputes them from the same arguments.

   So the two results are one function of the arguments: a pipelined product is, entry by entry, the same sum over
   the contracted axis as the host product (a sum on the extended reals does not depend on the blocking), the
   pointwise pass is the same expression at every entry, and everything between them is the same term.  No law is
   used that needs finite inputs; the precondition is never opened.

   The three frames: the two kernel programs' are the generated ones; the reference's is its generated run with the
   result dropped.  The idealization rewrote no operation, so there is nothing to preserve. -/
import proofs.«142853_j9612136808453_1_alg».proof.Defs
import proofs.«142853_j9612136808453_1_alg».proof.Proof.Gen.Kernel
import proofs.«142853_j9612136808453_1_alg».proof.Proof.Gen.Kernel.Skeleton
import proofs.«142853_j9612136808453_1_alg».proof.Proof.Gen.Kernel.Launch
import proofs.«142853_j9612136808453_1_alg».proof.Proof.Gen.Kernel.Points
import proofs.«142853_j9612136808453_1_alg».proof.Proof.Gen.Kernel.Frame
import proofs.«142853_j9612136808453_1_alg».proof.Proof.Gen.KernelIdeal
import proofs.«142853_j9612136808453_1_alg».proof.Proof.Gen.KernelIdeal.Skeleton
import proofs.«142853_j9612136808453_1_alg».proof.Proof.Gen.KernelIdeal.Launch
import proofs.«142853_j9612136808453_1_alg».proof.Proof.Gen.KernelIdeal.Points
import proofs.«142853_j9612136808453_1_alg».proof.Proof.Gen.KernelIdeal.Frame
import proofs.«142853_j9612136808453_1_alg».proof.Proof.Gen.ReferenceIdeal
import proofs.«142853_j9612136808453_1_alg».proof.Proof.Gen.Pre_finite_inputs
import proofs.«142853_j9612136808453_1_alg».proof.Proof.Gen.ReferenceIdeal.Run
import proofs.«142853_j9612136808453_1_alg».proof.Proof.Gen.ReferenceIdeal.Read
import proofs.«142853_j9612136808453_1_alg».proof.Proof.KernelRun
import proofs.«142853_j9612136808453_1_alg».proof.Proof.Chain
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's, walked back
    through its eleven segments, is the reference's last stage of the arguments. -/
theorem algebraic : Cert.algebraic_KernelIdeal_ReferenceIdeal := by
  intro m ρ m' ρ' _ hagree
  refine ⟨fun c => Cert.KernelIdeal.Gen.W11 m ρ c (Proc.devRef .tc Cert.KernelIdeal.main_v64),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v101_eq, (hagree c).1, (hagree c).2.1, (hagree c).2.2.1, (hagree c).2.2.2.1,
    (hagree c).2.2.2.2.1, (hagree c).2.2.2.2.2.1, (hagree c).2.2.2.2.2.2]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
